-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x100000 : S_.BroadcastsInDim S4x100000 (![] : Fin 0 → Fin S4x100000.rank)
  reducesTo_S4x100000_S_d0_1 : S4x100000.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S100000x128 .f32) (main_arg1 : FVec F S4x100000 .f32) (main_arg2 : FVec F S4x128x128 .f32) (main_arg3 : FVec F S128 .f32) (main_arg4 : FVec F S1600000 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x100000 .f32 := Host.absf main_arg1
  let main_cst_0 : FVec F S_ .f32 := constant S_ .f32 0x7F800000#32
  let main_v5 : FVec F S4x100000 .f32 := broadcastInDim S4x100000 ![] bcast_S_S4x100000 main_cst_0
  let main_v6 : IVec S4x100000 1 := cmpf .olt main_v4 main_v5
  let main_c_1 : IVec S_ 1 := constantI S_ 1 1#1
  let main_v7 : IVec S_ 1 := (fun x v => Host.reduce IntOp.andi x v reducesTo_S4x100000_S_d0_1 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x100000 : Shape := ⟨2, ![1, 100000]⟩
abbrev S100000 : Shape := ⟨1, ![100000]⟩
abbrev S100000x1 : Shape := ⟨2, ![100000, 1]⟩
abbrev S4000x128 : Shape := ⟨2, ![4000, 128]⟩
abbrev S4000x1 : Shape := ⟨2, ![4000, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 76
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S4x100000, .f32⟩
  | .hbm, ⟨2, _⟩ => ⟨S4x128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x100000, .f32⟩
  | .hbm, ⟨64, _⟩ => ⟨S100000, .f32⟩
  | .hbm, ⟨65, _⟩ => ⟨S100000x1, .f32⟩
  | .hbm, ⟨66, _⟩ => ⟨S1x100000, .f32⟩
  | .hbm, ⟨67, _⟩ => ⟨S100000, .f32⟩
  | .hbm, ⟨68, _⟩ => ⟨S100000x1, .f32⟩
  | .hbm, ⟨69, _⟩ => ⟨S1x100000, .f32⟩
  | .hbm, ⟨70, _⟩ => ⟨S100000, .f32⟩
  | .hbm, ⟨71, _⟩ => ⟨S100000x1, .f32⟩
  | .hbm, ⟨72, _⟩ => ⟨S1x100000, .f32⟩
  | .hbm, ⟨73, _⟩ => ⟨S100000, .f32⟩
  | .hbm, ⟨74, _⟩ => ⟨S100000x1, .f32⟩
  | .hbm, ⟨75, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S4x128x128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x100000_S1x100000_0_0 : S4x100000.Slices ![0, 0] S1x100000
  shapeCasts_S1x100000_S100000 : S1x100000.ShapeCasts S100000
  shapeCasts_S100000_S100000x1 : S100000.ShapeCasts S100000x1
  slices_S4x100000_S1x100000_1_0 : S4x100000.Slices ![1, 0] S1x100000
  slices_S4x100000_S1x100000_2_0 : S4x100000.Slices ![2, 0] S1x100000
  slices_S4x100000_S1x100000_3_0 : S4x100000.Slices ![3, 0] S1x100000
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S4000x128_S4000x128 : S4000x128.ShapeCasts S4000x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S100000x1.size a
  hwx0_6 : ∀ i : grid0.Coords, EltTy.bits .f32 = 32 ∨ (Rect.block (s := S100000x1) S4000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S100000x1.size a
  hwx0_7 : ∀ i : grid0.Coords, EltTy.bits .f32 = 32 ∨ (Rect.block (s := S100000x1) S4000x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128x128.size a ≤ S4x128x128.size a
  hwx0_8 : ∀ i : grid0.Coords, EltTy.bits .f32 = 32 ∨ (Rect.block (s := S4x128x128) S4x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v53) S4000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v56) S4000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S4x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S4x100000 : Shape := ⟨2, ![4, 100000]⟩
abbrev S4x128x128 : Shape := ⟨3, ![4, 128, 128]⟩
abbrev S128 : Shape := ⟨1, ![128]⟩
abbrev S1600000 : Shape := ⟨1, ![1600000]⟩
abbrev S1x100000 : Shape := ⟨2, ![1, 100000]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4x100000, .f32⟩
  | .hbm, ⟨2, _⟩ => ⟨S4x128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1x100000, .f32⟩
  | .hbm, ⟨8, _⟩ => ⟨S100000, .f32⟩
  | .hbm, ⟨9, _⟩ => ⟨S100000x1, .f32⟩
  | .hbm, ⟨10, _⟩ => ⟨S100000x128, .f32⟩
  | .hbm, ⟨11, _⟩ => ⟨S100000x128, .f32⟩
  | .hbm, ⟨12, _⟩ => ⟨S1x128x128, .f32⟩
  | .hbm, ⟨13, _⟩ => ⟨S128x128, .f32⟩
  | .hbm, ⟨14, _⟩ => ⟨S100000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x128x128, .f32⟩
  | .hbm, ⟨37, _⟩ => ⟨S128x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_5 : Ref sig .tc := ⟨.hbm, 69, rfl⟩
abbrev main_v55 : Ref sig .tc := ⟨.hbm, 70, rfl⟩
abbrev main_v56 : Ref sig .tc := ⟨.hbm, 71, rfl⟩
abbrev main_c_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩

abbrev nD : Nat := 1
abbrev τ : Topo := Topo.v7x

variable {F : FTy → Type} [FloatOps F]

class Facts₀ : Prop where
  slices_S4x100000_S1x100000_0_0 : S4x100000.Slices ![0, 0] S1x100000
  shapeCasts_S1x100000_S100000 : S1x100000.ShapeCasts S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x100000_S1x100000_1_0 : S4x100000.Slices ![1, 0] S1x100000
  slices_S4x128x128_S1x128x128_1_0_0 : S4x128x128.Slices ![1, 0, 0] S1x128x128
  slices_S4x100000_S1x100000_2_0 : S4x100000.Slices ![2, 0] S1x100000
  slices_S4x128x128_S1x128x128_2_0_0 : S4x128x128.Slices ![2, 0, 0] S1x128x128
  slices_S4x100000_S1x100000_3_0 : S4x100000.Slices ![3, 0] S1x100000
  slices_S4x128x128_S1x128x128_3_0_0 : S4x128x128.Slices ![3, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibColBroadcast.lean ====
/-
  One column broadcast over many, read at an entry.

  An [a, 1] array broadcast to [a, b] repeats its single column: entry (p, c) of the result is the operand's entry
  (p, 0), whatever the column c. The statement is general in the two extents.
-/
import Idealize.ShloMosaic.Lib.Pipeline.Value
import Idealize.ShloMosaic.Lib.ValueIdx

noncomputable section

namespace Cert.ColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (z : Fin 1) : broadcastTo ⟨2, ![a, b]⟩ v h (ix2 p c) = v (ix2 p z) := by
  refine broadcastTo_apply v h (ix2 p c) (ix2 p z) fun ax => ?_
  match ax with
  | ⟨0, _⟩ =>
    show p.val = if a = 1 then 0 else p.val
    split
    · have := p.isLt; omega
    · rfl
  | ⟨1, _⟩ =>
    show z.val = if (1 : ℕ) = 1 then 0 else c.val
    rw [if_pos rfl]; omega

end Cert.ColBroadcast

end
-- ==== Proof.KernelBlock.lean ====
/-
  What the kernel body leaves in its output block, entry by entry, over the extended reals.

  The body loads four [4000, 128] feature blocks, four [4000, 1] coefficient columns, the [4, 128, 128] weights and
  the [128] bias, and stores one [4000, 128] block. For each order o it spreads the coefficient column across the 128
  lanes, multiplies it into the feature block, and multiplies the result by the o-th weight matrix on the matrix unit
  into a zero accumulator; the four products are added one after another onto a zero block, and the bias row is added
  last. Over the extended reals a change of float format is the identity and the matrix product is the plain sum, so
  entry (p, g) of the stored block is

      ((((0 + Σ_k (x0[p,k]·c0[p,0])·W[0,k,g]) + Σ_k (x1[p,k]·c1[p,0])·W[1,k,g]) + …) + …) + b[g].
-/
import proofs.«109658_j17703855194471_2_alg».proof.Proof.Gen.KernelIdeal.Frame
import proofs.«109658_j17703855194471_2_alg».proof.Proof.LibPlainDot
import proofs.«109658_j17703855194471_2_alg».proof.Proof.LibColBroadcast
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- One order's product at entry (p, g): the feature block scaled row by row by the coefficient column, times the
    weight matrix (a [1, 128, 128] slab viewed as [128, 128]), into a zero accumulator. -/
theorem scaled_product (x : Vec Ideal S4000x128 .f32) (cc : Vec Ideal S4000x1 .f32) (wb : Vec Ideal S1x128x128 .f32)
    (p : Fin 4000) (g : Fin 128) :
    matmul (F := Ideal) dot_S4000x128_S128x128_S4000x128_1_0_0_1_n_n none
        (truncf .bf16 (mulf x (broadcastTo S4000x128 cc broadcasts_S4000x1_S4000x128)) bitsLt_bf16_f32)
        (truncf .bf16 (shapeCast S128x128 wb shapeCasts_S1x128x128_S128x128) bitsLt_bf16_f32)
        (constant S4000x128 .f32 0x00000000#32) (ix2 p g)
      = ∑ k : Fin 128, (x (ix2 p k) * cc (ix2 p 0)) * wb (ix3 0 k g) := by
  refine (Cert.PlainDot.matmul_zero_apply dot_S4000x128_S128x128_S4000x128_1_0_0_1_n_n rfl _ _ p g).trans ?_
  refine Finset.sum_congr rfl fun k _ => ?_
  have e1 : broadcastTo S4000x128 cc broadcasts_S4000x1_S4000x128 (ix2 p k) = cc (ix2 p 0) :=
    Cert.ColBroadcast.broadcastTo_a1_ab_apply cc broadcasts_S4000x1_S4000x128 p k 0
  have e2 : shapeCast S128x128 wb shapeCasts_S1x128x128_S128x128 (ix2 k g) = wb (ix3 0 k g) :=
    shapeCast_1ab_ab_apply wb shapeCasts_S1x128x128_S128x128 k g
  show (x (ix2 p k) * broadcastTo S4000x128 cc broadcasts_S4000x1_S4000x128 (ix2 p k))
      * shapeCast S128x128 wb shapeCasts_S1x128x128_S128x128 (ix2 k g) = _
  rw [e1, e2]

/-- The bias row spread down the block, at entry (p, g). -/
theorem bias_row (b : Vec Ideal S128 .f32) (p : Fin 4000) (g : Fin 128) :
    broadcastTo S4000x128 (shapeCast S1x128 b shapeCasts_S128_S1x128) broadcasts_S1x128_S4000x128 (ix2 p g) = b (ix1 g) :=
  (broadcastTo_1b_ab_apply _ broadcasts_S1x128_S4000x128 p g).trans (shapeCast_a_1a_apply b shapeCasts_S128_S1x128 0 g)

/-- The stored value as a function of the loaded blocks and weight slabs, at entry (p, g). -/
theorem payload_apply (x0 x1 x2 x3 : Vec Ideal S4000x128 .f32) (c0 c1 c2 c3 : Vec Ideal S4000x1 .f32)
    (w0 w1 w2 w3 : Vec Ideal S1x128x128 .f32) (b : Vec Ideal S128 .f32) (p : Fin 4000) (g : Fin 128) :
    k0_pay1 (k0_pay2 x0 c0 w0 x1 c1 w1) (k0_pay3 x2 c2) (k0_pay4 w2) (constant S4000x128 .f32 0x00000000#32) x3 c3 w3 b (ix2 p g)
      = ((((0 + ∑ k : Fin 128, (x0 (ix2 p k) * c0 (ix2 p 0)) * w0 (ix3 0 k g))
            + ∑ k : Fin 128, (x1 (ix2 p k) * c1 (ix2 p 0)) * w1 (ix3 0 k g))
          + ∑ k : Fin 128, (x2 (ix2 p k) * c2 (ix2 p 0)) * w2 (ix3 0 k g))
        + ∑ k : Fin 128, (x3 (ix2 p k) * c3 (ix2 p 0)) * w3 (ix3 0 k g))
        + b (ix1 g) := by
  unfold k0_pay1 k0_pay2 k0_pay3 k0_pay4
  dsimp only
  simp only [shapeCast_self]
  refine congrArg₂ (· + ·) (congrArg₂ (· + ·) (congrArg₂ (· + ·) (congrArg₂ (· + ·) (congrArg₂ (· + ·) ?_
    (scaled_product x0 c0 w0 p g)) (scaled_product x1 c1 w1 p g)) (scaled_product x2 c2 w2 p g))
    (scaled_product x3 c3 w3 p g)) (bias_row b p g)
  exact Ideal.ofBits_zero_f32

/-- Slab o of the weights, loaded as [1, 128, 128], at (0, k, g): the weights at (o, k, g). -/
theorem slab_apply (w : Vec Ideal S4x128x128 .f32) (o : ℕ) (oo : Fin 4) (ho : oo.val = o) (inb) (k g : Fin 128) :
    View.ld w (Rect.unit (s := S4x128x128) ![o, 0, 0] S1x128x128.size inb) (ix3 0 k g) = w (ix3 oo k g) := by
  show w _ = w _
  refine congrArg w (funext fun a => Fin.ext ?_)
  match a with
  | ⟨0, _⟩ => show o + 1 * 0 = oo.val; omega
  | ⟨1, _⟩ => show 0 + 1 * k.val = k.val; omega
  | ⟨2, _⟩ => show 0 + 1 * g.val = g.val; omega

/-- What the body leaves in the output block, at entry (p, g), from the ten input blocks. -/
theorem out_apply (x0 x1 x2 x3 : Vec Ideal S4000x128 .f32) (c0 c1 c2 c3 : Vec Ideal S4000x1 .f32)
    (w : Vec Ideal S4x128x128 .f32) (b : Vec Ideal S128 .f32) (p : Fin 4000) (g : Fin 128) :
    out0_10 x0 x1 x2 x3 c0 c1 c2 c3 w b (ix2 p g)
      = ((((0 + ∑ k : Fin 128, (x0 (ix2 p k) * c0 (ix2 p 0)) * w (ix3 0 k g))
            + ∑ k : Fin 128, (x1 (ix2 p k) * c1 (ix2 p 0)) * w (ix3 1 k g))
          + ∑ k : Fin 128, (x2 (ix2 p k) * c2 (ix2 p 0)) * w (ix3 2 k g))
        + ∑ k : Fin 128, (x3 (ix2 p k) * c3 (ix2 p 0)) * w (ix3 3 k g))
        + b (ix1 g) := by
  unfold out0_10
  rw [View.canon_unit_zero hz2]
  simp only [View.ld_unit_zero (S := S4000x128) hz2, View.ld_unit_zero (S := S4000x1) hz2, View.ld_unit_zero (S := S128) hz1]
  refine (payload_apply x0 x1 x2 x3 c0 c1 c2 c3 (View.ld w r0_2) (View.ld w r0_3) (View.ld w r0_4) (View.ld w r0_5) b p g).trans ?_
  simp only [slab_apply w 0 0 rfl, slab_apply w 1 1 rfl, slab_apply w 2 2 rfl, slab_apply w 3 3 rfl]

/-- The same at an arbitrary index of the block. -/
theorem out_apply_idx (x0 x1 x2 x3 : Vec Ideal S4000x128 .f32) (c0 c1 c2 c3 : Vec Ideal S4000x1 .f32)
    (w : Vec Ideal S4x128x128 .f32) (b : Vec Ideal S128 .f32) (y : S4000x128.Idx) (p : Fin 4000) (g : Fin 128)
    (hp : (y 0).val = p.val) (hg : (y 1).val = g.val) :
    out0_10 x0 x1 x2 x3 c0 c1 c2 c3 w b y
      = ((((0 + ∑ k : Fin 128, (x0 (ix2 p k) * c0 (ix2 p 0)) * w (ix3 0 k g))
            + ∑ k : Fin 128, (x1 (ix2 p k) * c1 (ix2 p 0)) * w (ix3 1 k g))
          + ∑ k : Fin 128, (x2 (ix2 p k) * c2 (ix2 p 0)) * w (ix3 2 k g))
        + ∑ k : Fin 128, (x3 (ix2 p k) * c3 (ix2 p 0)) * w (ix3 3 k g))
        + b (ix1 g) := by
  have hy : y = ix2 p g := funext fun a => Fin.ext (by
    match a with
    | ⟨0, _⟩ => exact hp
    | ⟨1, _⟩ => exact hg)
  rw [hy]
  exact out_apply x0 x1 x2 x3 c0 c1 c2 c3 w b p g

end Cert.KernelIdeal.Block

end
-- ==== Proof.KernelWindows.lean ====
/-
  Where each window's block sits in its array.

  The launch runs over 25 grid points. At point t the four feature windows and the output window hold rows
  4000·t … 4000·t + 3999 of their [100000, 128] arrays, the four coefficient windows the same rows of their
  [100000, 1] columns, and the weight and bias windows the whole of their arrays (their block index is zero at every
  point). So an entry (p, k) of a block is the array's entry (4000·t + p, k).
-/
import proofs.«109658_j17703855194471_2_alg».proof.Proof.Gen.KernelIdeal.Frame
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The row of the arrays that row p of point t's blocks is. -/
def row (t : Fin cfg0.N) (p : Fin 4000) : Fin 100000 :=
  ⟨t.val * 4000 + p.val, by
    have hN : cfg0.N = 25 := N_0
    have ht : t.val < cfg0.N := t.isLt
    have hp : p.val < 4000 := p.isLt
    omega⟩

theorem row_val (t : Fin cfg0.N) (p : Fin 4000) : (row t p).val = t.val * 4000 + p.val := rfl

/-! ## The printed index maps, decided over the 25 points -/

theorem idx_feat0 : ∀ t : Fin cfg0.N, win0_0.index t (0 : Fin 2) = t.val ∧ win0_0.index t (1 : Fin 2) = 0 :=
  (by decide +kernel : ∀ t : Fin grid0.N, _)
theorem idx_feat1 : ∀ t : Fin cfg0.N, win0_1.index t (0 : Fin 2) = t.val ∧ win0_1.index t (1 : Fin 2) = 0 :=
  (by decide +kernel : ∀ t : Fin grid0.N, _)
theorem idx_feat2 : ∀ t : Fin cfg0.N, win0_2.index t (0 : Fin 2) = t.val ∧ win0_2.index t (1 : Fin 2) = 0 :=
  (by decide +kernel : ∀ t : Fin grid0.N, _)
theorem idx_feat3 : ∀ t : Fin cfg0.N, win0_3.index t (0 : Fin 2) = t.val ∧ win0_3.index t (1 : Fin 2) = 0 :=
  (by decide +kernel : ∀ t : Fin grid0.N, _)
theorem idx_coef4 : ∀ t : Fin cfg0.N, win0_4.index t (0 : Fin 2) = t.val ∧ win0_4.index t (1 : Fin 2) = 0 :=
  (by decide +kernel : ∀ t : Fin grid0.N, _)
theorem idx_coef5 : ∀ t : Fin cfg0.N, win0_5.index t (0 : Fin 2) = t.val ∧ win0_5.index t (1 : Fin 2) = 0 :=
  (by decide +kernel : ∀ t : Fin grid0.N, _)
theorem idx_coef6 : ∀ t : Fin cfg0.N, win0_6.index t (0 : Fin 2) = t.val ∧ win0_6.index t (1 : Fin 2) = 0 :=
  (by decide +kernel : ∀ t : Fin grid0.N, _)
theorem idx_coef7 : ∀ t : Fin cfg0.N, win0_7.index t (0 : Fin 2) = t.val ∧ win0_7.index t (1 : Fin 2) = 0 :=
  (by decide +kernel : ∀ t : Fin grid0.N, _)
theorem idx_wts : ∀ t : Fin cfg0.N, win0_8.index t (0 : Fin 3) = 0 ∧ win0_8.index t (1 : Fin 3) = 0 ∧ win0_8.index t (2 : Fin 3) = 0 :=
  (by decide +kernel : ∀ t : Fin grid0.N, _)
theorem idx_bias : ∀ t : Fin cfg0.N, win0_9.index t (0 : Fin 1) = 0 :=
  (by decide +kernel : ∀ t : Fin grid0.N, _)
theorem idx_out : ∀ t : Fin cfg0.N, win0_10.index t (0 : Fin 2) = t.val ∧ win0_10.index t (1 : Fin 2) = 0 :=
  (by decide +kernel : ∀ t : Fin grid0.N, _)

/-! ## The weights, the bias and the output -/

/-- The weight window's block at any point is the whole weight array. -/
theorem wts (c : Dev nD) (t : Fin cfg0.N) (o : Fin 4) (k g : Fin 128) :
    (iblk m c 8 t : Vec Ideal S4x128x128 .f32) (ix3 o k g) = (V m c main_arg2 : S4x128x128.Idx → EReal) (ix3 o k g) := by
  obtain ⟨e0, e1, e2⟩ := idx_wts t
  unfold iblk
  rw [View.read_apply]
  show (V m c main_arg2 : S4x128x128.Idx → EReal) _ = _
  refine congrArg (V m c main_arg2 : S4x128x128.Idx → EReal) (funext fun a => Fin.ext ?_)
  match a with
  | ⟨0, _⟩ => show win0_8.index t (0 : Fin 3) * 4 + 1 * o.val = o.val; rw [e0]; omega
  | ⟨1, _⟩ => show win0_8.index t (1 : Fin 3) * 128 + 1 * k.val = k.val; rw [e1]; omega
  | ⟨2, _⟩ => show win0_8.index t (2 : Fin 3) * 128 + 1 * g.val = g.val; rw [e2]; omega

/-- The bias window's block at any point is the whole bias. -/
theorem bias (c : Dev nD) (t : Fin cfg0.N) (g : Fin 128) :
    (iblk m c 9 t : Vec Ideal S128 .f32) (ix1 g) = (V m c main_arg3 : S128.Idx → EReal) (ix1 g) := by
  have e0 := idx_bias t
  unfold iblk
  rw [View.read_apply]
  show (V m c main_arg3 : S128.Idx → EReal) _ = _
  refine congrArg (V m c main_arg3 : S128.Idx → EReal) (funext fun a => Fin.ext ?_)
  match a with
  | ⟨0, _⟩ => show win0_9.index t (0 : Fin 1) * 128 + 1 * g.val = g.val; rw [e0]; omega

/-- Where entry j of the output window's block at point t sits in the result array. -/
theorem out_emb (t : Fin cfg0.N) (j : ((cfg0.win 10).xblock (cfg0.grid.coords t)).Idx) (p : Fin 4000) (g : Fin 128)
    (hp : (j 0).val = p.val) (hg : (j 1).val = g.val) :
    ((cfg0.win 10).blk t).view.emb j = (ix2 (row t p) g : S100000x128.Idx) := by
  obtain ⟨e0, e1⟩ := idx_out t
  refine funext fun a => Fin.ext ?_
  match a with
  | ⟨0, _⟩ => show win0_10.index t (0 : Fin 2) * 4000 + 1 * (j 0).val = t.val * 4000 + p.val; rw [e0, hp]; omega
  | ⟨1, _⟩ => show win0_10.index t (1 : Fin 2) * 128 + 1 * (j 1).val = g.val; rw [e1, hg]; omega

end Cert.KernelIdeal.Windows

end
-- ==== Proof.KernelFeatWindows.lean ====
/-
  The four feature windows: at point t each holds rows 4000·t … 4000·t + 3999 of its [100000, 128] array, so entry
  (p, k) of the block is the array's entry (4000·t + p, k). Each fact is first stated for an arbitrary array read
  through the window's block — it is a fact about the window's position only — and then used at the array the
  region finds.
-/
import proofs.«109658_j17703855194471_2_alg».proof.Proof.KernelWindows

noncomputable section

namespace Cert.KernelIdeal.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Any [100000, 128] array read through window 0's block at point t, entry (p, k): the array's row 4000·t + p. -/
theorem rows0 (A : S100000x128.Idx → EReal) (t : Fin cfg0.N) (p : Fin 4000) (k : Fin 128) :
    (((cfg0.win 0).blk t).view.read (Elt Ideal) A : Vec Ideal S4000x128 .f32) (ix2 p k) = A (ix2 (row t p) k) := by
  obtain ⟨e0, e1⟩ := idx_feat0 t
  rw [View.read_apply]
  show A _ = _
  refine congrArg A (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The same through window 1's block. -/
theorem rows1 (A : S100000x128.Idx → EReal) (t : Fin cfg0.N) (p : Fin 4000) (k : Fin 128) :
    (((cfg0.win 1).blk t).view.read (Elt Ideal) A : Vec Ideal S4000x128 .f32) (ix2 p k) = A (ix2 (row t p) k) := by
  obtain ⟨e0, e1⟩ := idx_feat1 t
  rw [View.read_apply]
  show A _ = _
  refine congrArg A (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- The same through window 2's block. -/
theorem rows2 (A : S100000x128.Idx → EReal) (t : Fin cfg0.N) (p : Fin 4000) (k : Fin 128) :
    (((cfg0.win 2).blk t).view.read (Elt Ideal) A : Vec Ideal S4000x128 .f32) (ix2 p k) = A (ix2 (row t p) k) := by
  obtain ⟨e0, e1⟩ := idx_feat2 t
  rw [View.read_apply]
  show A _ = _
  refine congrArg A (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

/-- The same through window 3's block. -/
theorem rows3 (A : S100000x128.Idx → EReal) (t : Fin cfg0.N) (p : Fin 4000) (k : Fin 128) :
    (((cfg0.win 3).blk t).view.read (Elt Ideal) A : Vec Ideal S4000x128 .f32) (ix2 p k) = A (ix2 (row t p) k) := by
  obtain ⟨e0, e1⟩ := idx_feat3 t
  rw [View.read_apply]
  show A _ = _
  refine congrArg A (funext fun a => Fin.ext ?_)
  match a with
  | ⟨0, _⟩ => show win0_3.index t (0 : Fin 2) * 4000 + 1 * p.val = t.val * 4000 + p.val; rw [e0]; omega
  | ⟨1, _⟩ => show win0_3.index t (1 : Fin 2) * 128 + 1 * k.val = k.val; rw [e1]; omega

/-- Window 0's block at point t: rows of the input features. -/
theorem feat0 (c : Dev nD) (t : Fin cfg0.N) (p : Fin 4000) (k : Fin 128) :
    (iblk m c 0 t : Vec Ideal S4000x128 .f32) (ix2 p k) = (V m c main_arg0 : S100000x128.Idx → EReal) (ix2 (row t p) k) :=
  rows0 (V m c main_arg0) t p k

/-- Window 1's block at point t: rows of the first aggregated feature array. -/
theorem feat1 (c : Dev nD) (t : Fin cfg0.N) (p : Fin 4000) (k : Fin 128) :
    (iblk m c 1 t : Vec Ideal S4000x128 .f32) (ix2 p k) = (V m c main_v12 : S100000x128.Idx → EReal) (ix2 (row t p) k) :=
  rows1 (V m c main_v12) t p k

/-- Window 2's block at point t: rows of the second aggregated feature array. -/
theorem feat2 (c : Dev nD) (t : Fin cfg0.N) (p : Fin 4000) (k : Fin 128) :
    (iblk m c 2 t : Vec Ideal S4000x128 .f32) (ix2 p k) = (V m c main_v28 : S100000x128.Idx → EReal) (ix2 (row t p) k) :=
  rows2 (V m c main_v28) t p k

/-- Window 3's block at point t: rows of the third aggregated feature array. -/
theorem feat3 (c : Dev nD) (t : Fin cfg0.N) (p : Fin 4000) (k : Fin 128) :
    (iblk m c 3 t : Vec Ideal S4000x128 .f32) (ix2 p k) = (V m c main_v44 : S100000x128.Idx → EReal) (ix2 (row t p) k) :=
  rows3 (V m c main_v44) t p k

end Cert.KernelIdeal.Windows

end
-- ==== Proof.KernelCoefWindows.lean ====
/-
  The four coefficient windows: at point t each holds rows 4000·t … 4000·t + 3999 of its [100000, 1] column, so
  entry (p, 0) of the block is the column's entry (4000·t + p, 0). Each fact is first stated for an arbitrary column
  read through the window's block and then used at the column the region finds.
-/
import proofs.«109658_j17703855194471_2_alg».proof.Proof.KernelWindows

noncomputable section

namespace Cert.KernelIdeal.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Any [100000, 1] column read through window 4's block at point t, entry (p, u): the column's row 4000·t + p. -/
theorem colrows4 (A : S100000x1.Idx → EReal) (t : Fin cfg0.N) (p : Fin 4000) (u : Fin 1) :
    (((cfg0.win 4).blk t).view.read (Elt Ideal) A : Vec Ideal S4000x1 .f32) (ix2 p u) = A (ix2 (row t p) u) := by
  obtain ⟨e0, e1⟩ := idx_coef4 t
  rw [View.read_apply]
  show A _ = _
  refine congrArg A (funext fun a => Fin.ext ?_)
  match a with
  | ⟨0, _⟩ => show win0_4.index t (0 : Fin 2) * 4000 + 1 * p.val = t.val * 4000 + p.val; rw [e0]; omega
  | ⟨1, _⟩ => show win0_4.index t (1 : Fin 2) * 1 + 1 * u.val = u.val; rw [e1]; omega

/-- The same through window 5's block. -/
theorem colrows5 (A : S100000x1.Idx → EReal) (t : Fin cfg0.N) (p : Fin 4000) (u : Fin 1) :
    (((cfg0.win 5).blk t).view.read (Elt Ideal) A : Vec Ideal S4000x1 .f32) (ix2 p u) = A (ix2 (row t p) u) := by
  obtain ⟨e0, e1⟩ := idx_coef5 t
  rw [View.read_apply]
  show A _ = _
  refine congrArg A (funext fun a => Fin.ext ?_)
  match a with
  | ⟨0, _⟩ => show win0_5.index t (0 : Fin 2) * 4000 + 1 * p.val = t.val * 4000 + p.val; rw [e0]; omega
  | ⟨1, _⟩ => show win0_5.index t (1 : Fin 2) * 1 + 1 * u.val = u.val; rw [e1]; omega

/-- The same through window 6's block. -/
theorem colrows6 (A : S100000x1.Idx → EReal) (t : Fin cfg0.N) (p : Fin 4000) (u : Fin 1) :
    (((cfg0.win 6).blk t).view.read (Elt Ideal) A : Vec Ideal S4000x1 .f32) (ix2 p u) = A (ix2 (row t p) u) := by
  obtain ⟨e0, e1⟩ := idx_coef6 t
  rw [View.read_apply]
  show A _ = _
  refine congrArg A (funext fun a => Fin.ext ?_)
  match a with
  | ⟨0, _⟩ => show win0_6.index t (0 : Fin 2) * 4000 + 1 * p.val = t.val * 4000 + p.val; rw [e0]; omega
  | ⟨1, _⟩ => show win0_6.index t (1 : Fin 2) * 1 + 1 * u.val = u.val; rw [e1]; omega

/-- The same through window 7's block. -/
theorem colrows7 (A : S100000x1.Idx → EReal) (t : Fin cfg0.N) (p : Fin 4000) (u : Fin 1) :
    (((cfg0.win 7).blk t).view.read (Elt Ideal) A : Vec Ideal S4000x1 .f32) (ix2 p u) = A (ix2 (row t p) u) := by
  obtain ⟨e0, e1⟩ := idx_coef7 t
  rw [View.read_apply]
  show A _ = _
  refine congrArg A (funext fun a => Fin.ext ?_)
  match a with
  | ⟨0, _⟩ => show win0_7.index t (0 : Fin 2) * 4000 + 1 * p.val = t.val * 4000 + p.val; rw [e0]; omega
  | ⟨1, _⟩ => show win0_7.index t (1 : Fin 2) * 1 + 1 * u.val = u.val; rw [e1]; omega

/-- Window 4's block at point t: rows of the first coefficient column. -/
theorem coef4 (c : Dev nD) (t : Fin cfg0.N) (p : Fin 4000) (u : Fin 1) :
    (iblk m c 4 t : Vec Ideal S4000x1 .f32) (ix2 p u) = (V m c main_v47 : S100000x1.Idx → EReal) (ix2 (row t p) u) :=
  colrows4 (V m c main_v47) t p u

/-- Window 5's block at point t: rows of the second coefficient column. -/
theorem coef5 (c : Dev nD) (t : Fin cfg0.N) (p : Fin 4000) (u : Fin 1) :
    (iblk m c 5 t : Vec Ideal S4000x1 .f32) (ix2 p u) = (V m c main_v50 : S100000x1.Idx → EReal) (ix2 (row t p) u) :=
  colrows5 (V m c main_v50) t p u

/-- Window 6's block at point t: rows of the third coefficient column. -/
theorem coef6 (c : Dev nD) (t : Fin cfg0.N) (p : Fin 4000) (u : Fin 1) :
    (iblk m c 6 t : Vec Ideal S4000x1 .f32) (ix2 p u) = (V m c main_v53 : S100000x1.Idx → EReal) (ix2 (row t p) u) :=
  colrows6 (V m c main_v53) t p u

/-- Window 7's block at point t: rows of the fourth coefficient column. -/
theorem coef7 (c : Dev nD) (t : Fin cfg0.N) (p : Fin 4000) (u : Fin 1) :
    (iblk m c 7 t : Vec Ideal S4000x1 .f32) (ix2 p u) = (V m c main_v56 : S100000x1.Idx → EReal) (ix2 (row t p) u) :=
  colrows7 (V m c main_v56) t p u

end Cert.KernelIdeal.Windows

end
-- ==== Proof.LibRowAsColumn.lean ====
/-
  One row of a matrix taken out and stood up as a column, read at an entry. General in the extents and the
  element type.

  Row o of a [K, N] array is sliced out as [1, N], flattened to the vector [N], and then viewed as the column
  [N, 1] (what `x[o].reshape(N, 1)` lowers to). None of the three steps moves a value: entry (n, 0) of the column is
  entry (o, n) of the array.
-/
import Idealize.ShloMosaic.Lib.ValueLayout
import Idealize.ShloMosaic.Lib.ValueIdx

noncomputable section

namespace Cert.Lib.RowAsColumn

open Idealize.ShloMosaic Idealize.ShloMosaic.ValueIdx

variable {α : Type}

/-- A vector [a] viewed as the column [a, 1]: entry (p, u) of the column is entry p of the vector (both sit at
    row-major position p). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Row `o` of a [K, N] array, sliced out, flattened and stood up as a column [N, 1], read at (n, u): the array's
    entry (o, n). -/
theorem row_as_column_apply {K N : ℕ} (o : ℕ) (X : (⟨2, ![K, N]⟩ : Shape).Idx → α)
    (h1 : (⟨2, ![K, N]⟩ : Shape).Slices ![o, 0] ⟨2, ![1, N]⟩)
    (h2 : (⟨2, ![1, N]⟩ : Shape).ShapeCasts ⟨1, ![N]⟩)
    (h3 : (⟨1, ![N]⟩ : Shape).ShapeCasts ⟨2, ![N, 1]⟩) (n : Fin N) (u : Fin 1) (r : Fin K) (hr : r.val = o) :
    shapeCast ⟨2, ![N, 1]⟩ (shapeCast ⟨1, ![N]⟩ (extractStridedSlice ⟨2, ![1, N]⟩ ![o, 0] X h1) h2) h3 (ix2 n u)
      = X (ix2 r n) :=
  (shapeCast_a_a1_apply _ h3 n u).trans
    ((shapeCast_1a_a_apply _ h2 n).trans
      (slice2_axis0_apply o X h1 (0 : Fin 1) n r (by rw [hr]; rfl)))

end Cert.Lib.RowAsColumn

end
-- ==== Proof.HostCoef.lean ====
/-
  The four coefficient columns the kernel's program prepares on the host, read at an entry.

  Column o is row o of the [4, 100000] coefficient array, sliced out, flattened and stood up as [100000, 1]; entry
  (n, 0) of it is the coefficient array's entry (o, n).
-/
import proofs.«109658_j17703855194471_2_alg».proof.Proof.Gen.KernelIdeal.Frame
import proofs.«109658_j17703855194471_2_alg».proof.Proof.LibRowAsColumn
import Idealize.ShloMosaic.Lib.StableHlo.Run
import Idealize.ShloMosaic.Lib.ValueIdx

noncomputable section

namespace Cert.KernelIdeal.HostCoef

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 4000000 in
theorem V_col0 (c : Dev nD) :
    (V m c main_v47 : S100000x1.Idx → EReal)
      = shapeCast S100000x1 (shapeCast S100000 (extractStridedSlice S1x100000 ![0, 0]
          (m ((c : Thread nD τ).loc main_arg1) : S4x100000.Idx → EReal) slices_S4x100000_S1x100000_0_0)
          shapeCasts_S1x100000_S100000) shapeCasts_S100000_S100000x1 := by
  dsimp only [Gen.V, Gen.hostOps0]
  after_results_simp <;> rfl

set_option maxRecDepth 8192 in
set_option maxHeartbeats 4000000 in
theorem V_col1 (c : Dev nD) :
    (V m c main_v50 : S100000x1.Idx → EReal)
      = shapeCast S100000x1 (shapeCast S100000 (extractStridedSlice S1x100000 ![1, 0]
          (m ((c : Thread nD τ).loc main_arg1) : S4x100000.Idx → EReal) slices_S4x100000_S1x100000_1_0)
          shapeCasts_S1x100000_S100000) shapeCasts_S100000_S100000x1 := by
  dsimp only [Gen.V, Gen.hostOps0]
  after_results_simp <;> rfl

set_option maxRecDepth 8192 in
set_option maxHeartbeats 4000000 in
theorem V_col2 (c : Dev nD) :
    (V m c main_v53 : S100000x1.Idx → EReal)
      = shapeCast S100000x1 (shapeCast S100000 (extractStridedSlice S1x100000 ![2, 0]
          (m ((c : Thread nD τ).loc main_arg1) : S4x100000.Idx → EReal) slices_S4x100000_S1x100000_2_0)
          shapeCasts_S1x100000_S100000) shapeCasts_S100000_S100000x1 := by
  dsimp only [Gen.V, Gen.hostOps0]
  after_results_simp <;> rfl

set_option maxRecDepth 8192 in
set_option maxHeartbeats 4000000 in
theorem V_col3 (c : Dev nD) :
    (V m c main_v56 : S100000x1.Idx → EReal)
      = shapeCast S100000x1 (shapeCast S100000 (extractStridedSlice S1x100000 ![3, 0]
          (m ((c : Thread nD τ).loc main_arg1) : S4x100000.Idx → EReal) slices_S4x100000_S1x100000_3_0)
          shapeCasts_S1x100000_S100000) shapeCasts_S100000_S100000x1 := by
  dsimp only [Gen.V, Gen.hostOps0]
  after_results_simp <;> rfl

/-- Column 0 at (n, u) is the coefficient array at (0, n). -/
theorem col0_apply (c : Dev nD) (n : Fin 100000) (u : Fin 1) :
    (V m c main_v47 : S100000x1.Idx → EReal) (ix2 n u)
      = (m ((c : Thread nD τ).loc main_arg1) : S4x100000.Idx → EReal) (ix2 (0 : Fin 4) n) := by
  rw [V_col0]
  exact Cert.Lib.RowAsColumn.row_as_column_apply 0 _ slices_S4x100000_S1x100000_0_0 shapeCasts_S1x100000_S100000
    shapeCasts_S100000_S100000x1 n u 0 rfl

/-- Column 1 at (n, u) is the coefficient array at (1, n). -/
theorem col1_apply (c : Dev nD) (n : Fin 100000) (u : Fin 1) :
    (V m c main_v50 : S100000x1.Idx → EReal) (ix2 n u)
      = (m ((c : Thread nD τ).loc main_arg1) : S4x100000.Idx → EReal) (ix2 (1 : Fin 4) n) := by
  rw [V_col1]
  exact Cert.Lib.RowAsColumn.row_as_column_apply 1 _ slices_S4x100000_S1x100000_1_0 shapeCasts_S1x100000_S100000
    shapeCasts_S100000_S100000x1 n u 1 rfl

/-- Column 2 at (n, u) is the coefficient array at (2, n). -/
theorem col2_apply (c : Dev nD) (n : Fin 100000) (u : Fin 1) :
    (V m c main_v53 : S100000x1.Idx → EReal) (ix2 n u)
      = (m ((c : Thread nD τ).loc main_arg1) : S4x100000.Idx → EReal) (ix2 (2 : Fin 4) n) := by
  rw [V_col2]
  exact Cert.Lib.RowAsColumn.row_as_column_apply 2 _ slices_S4x100000_S1x100000_2_0 shapeCasts_S1x100000_S100000
    shapeCasts_S100000_S100000x1 n u 2 rfl

/-- Column 3 at (n, u) is the coefficient array at (3, n). -/
theorem col3_apply (c : Dev nD) (n : Fin 100000) (u : Fin 1) :
    (V m c main_v56 : S100000x1.Idx → EReal) (ix2 n u)
      = (m ((c : Thread nD τ).loc main_arg1) : S4x100000.Idx → EReal) (ix2 (3 : Fin 4) n) := by
  rw [V_col3]
  exact Cert.Lib.RowAsColumn.row_as_column_apply 3 _ slices_S4x100000_S1x100000_3_0 shapeCasts_S1x100000_S100000
    shapeCasts_S100000_S100000x1 n u 3 rfl

end Cert.KernelIdeal.HostCoef

end
-- ==== Proof.ChebSpec.lean ====
/-
  The Chebyshev layer as one function of its operands, entry by entry, over the extended reals.

  A layer of order four takes four node-feature arrays T0 … T3 (each [100000, 128]: the Chebyshev polynomials of the
  rescaled Laplacian applied to the input features), a per-order, per-node coefficient array c ([4, 100000]), four
  weight matrices W ([4, 128, 128]) and a bias b ([128]). Its value at node n and output feature g is

      out[n, g] = Σ_o Σ_k (c[o, n] · T_o[n, k]) · W[o, k, g]  +  b[g],

  the four orders added in the order 0, 1, 2, 3 and the bias last. Everything here is finite sums and products of
  extended reals; the only laws used are that 0 is neutral for + and that · is commutative, both of which hold
  at the infinities, so no finiteness of the operands is needed.
-/
import Idealize.ShloMosaic.PureOps.Ideal
import Idealize.ShloMosaic.Lib.ValueIdx

noncomputable section

namespace Cert.Cheb

open Idealize.ShloMosaic Idealize.ShloMosaic.ValueIdx

/-- Node features: one row of 128 per node. -/
abbrev Feat : Type := (⟨2, ![100000, 128]⟩ : Shape).Idx → EReal
/-- Per-order, per-node coefficients. -/
abbrev Coef : Type := (⟨2, ![4, 100000]⟩ : Shape).Idx → EReal
/-- Per-order weight matrices. -/
abbrev Wts : Type := (⟨3, ![4, 128, 128]⟩ : Shape).Idx → EReal
/-- The bias row. -/
abbrev Bias : Type := (⟨1, ![128]⟩ : Shape).Idx → EReal

/-- Order o's contribution at node n, output feature g: the coefficient-scaled feature row times column g of W_o. -/
def term (T : Feat) (cf : Coef) (w : Wts) (o : Fin 4) (n : Fin 100000) (g : Fin 128) : EReal :=
  ∑ k : Fin 128, (cf (ix2 o n) * T (ix2 n k)) * w (ix3 o k g)

/-- The layer at node n, output feature g. -/
def layerAt (T0 T1 T2 T3 : Feat) (cf : Coef) (w : Wts) (b : Bias) (n : Fin 100000) (g : Fin 128) : EReal :=
  (((term T0 cf w 0 n g + term T1 cf w 1 n g) + term T2 cf w 2 n g) + term T3 cf w 3 n g) + b (ix1 g)

/-- The layer as an array. -/
def layer (T0 T1 T2 T3 : Feat) (cf : Coef) (w : Wts) (b : Bias) : Feat :=
  fun i => layerAt T0 T1 T2 T3 cf w b ⟨(i 0).val, idx2_lt0 i⟩ ⟨(i 1).val, idx2_lt1 i⟩

theorem layer_apply (T0 T1 T2 T3 : Feat) (cf : Coef) (w : Wts) (b : Bias) (n : Fin 100000) (g : Fin 128) :
    layer T0 T1 T2 T3 cf w b (ix2 n g) = layerAt T0 T1 T2 T3 cf w b n g := rfl

/-- The same contribution with the feature written before its coefficient: multiplication commutes. -/
theorem term_swap (T : Feat) (cf : Coef) (w : Wts) (o : Fin 4) (n : Fin 100000) (g : Fin 128) :
    ∑ k : Fin 128, (T (ix2 n k) * cf (ix2 o n)) * w (ix3 o k g) = term T cf w o n g := by
  unfold term
  exact Finset.sum_congr rfl fun k _ => by rw [mul_comm (T (ix2 n k)) (cf (ix2 o n))]

/-- A running total started at zero, each order's contribution (feature before coefficient) added in turn, then the
    bias: the layer. -/
theorem accumulated (T0 T1 T2 T3 : Feat) (cf : Coef) (w : Wts) (b : Bias) (n : Fin 100000) (g : Fin 128) :
    ((((0 + ∑ k : Fin 128, (T0 (ix2 n k) * cf (ix2 0 n)) * w (ix3 0 k g))
          + ∑ k : Fin 128, (T1 (ix2 n k) * cf (ix2 1 n)) * w (ix3 1 k g))
        + ∑ k : Fin 128, (T2 (ix2 n k) * cf (ix2 2 n)) * w (ix3 2 k g))
      + ∑ k : Fin 128, (T3 (ix2 n k) * cf (ix2 3 n)) * w (ix3 3 k g))
      + b (ix1 g)
    = layerAt T0 T1 T2 T3 cf w b n g := by
  rw [zero_add, term_swap, term_swap, term_swap, term_swap]
  rfl

end Cert.Cheb

end
-- ==== Proof.KernelValue.lean ====
/-
  The kernel's result array as the Chebyshev layer of what the region finds.

  Each grid point writes back one [4000, 128] block. By the block's entry formula (KernelBlock), the position of each
  window's block in its array (KernelWindows) and the coefficient columns (HostCoef), what point t writes back is
  rows 4000·t … 4000·t + 3999 of ONE array: the layer of ChebSpec applied to the input features, the three aggregated
  feature arrays as the region finds them, the coefficients, the weights and the bias. The 25 blocks tile the
  [100000, 128] result (row r lies in block r / 4000), so after the run the result array is that layer.
-/
import proofs.«109658_j17703855194471_2_alg».proof.Proof.Gen.KernelIdeal.Value
import proofs.«109658_j17703855194471_2_alg».proof.Proof.KernelBlock
import proofs.«109658_j17703855194471_2_alg».proof.Proof.KernelWindows
import proofs.«109658_j17703855194471_2_alg».proof.Proof.KernelFeatWindows
import proofs.«109658_j17703855194471_2_alg».proof.Proof.KernelCoefWindows
import proofs.«109658_j17703855194471_2_alg».proof.Proof.HostCoef
import proofs.«109658_j17703855194471_2_alg».proof.Proof.ChebSpec
import Idealize.ShloMosaic.Lib.Pipeline.Value
import Idealize.ShloMosaic.Lib.ValueIdx

noncomputable section

namespace Cert.KernelIdeal.Hand

open Cert.KernelIdeal Cert.KernelIdeal.Gen Cert.KernelIdeal.Value Cert.KernelIdeal.Windows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the arrays the region finds: the input features, the three aggregated feature arrays the host
    computed, the coefficients, the weights, the bias. -/
def G (c : Dev nD) : S100000x128.Idx → EReal :=
  Cert.Cheb.layer (V m c main_arg0) (V m c main_v12) (V m c main_v28) (V m c main_v44)
    (m ((c : Thread nD τ).loc main_arg1)) (V m c main_arg2) (V m c main_arg3)

/-- What point t writes back is block t of the layer. -/
theorem flushed_eq (c : Dev nD) (t : Fin cfg0.N) :
    (dats m 0 c).flushed 10 t = ((cfg0.win 10).blk t).view.read (Elt Ideal) (G m c) := by
  rw [flushed10]
  funext j
  have hj0 : (j 0).val < 4000 := (j 0).isLt
  have hj1 : (j 1).val < 128 := (j 1).isLt
  refine (Cert.KernelIdeal.Block.out_apply_idx (iblk m c 0 t) (iblk m c 1 t) (iblk m c 2 t) (iblk m c 3 t) (iblk m c 4 t)
    (iblk m c 5 t) (iblk m c 6 t) (iblk m c 7 t) (iblk m c 8 t) (iblk m c 9 t) ((cfg0.win 10).xinj (grid0.coords t) j)
    ⟨(j 0).val, hj0⟩ ⟨(j 1).val, hj1⟩ rfl rfl).trans ?_
  rw [View.read_apply]
  show _ = G m c (((cfg0.win 10).blk t).view.emb j)
  rw [out_emb t j ⟨(j 0).val, hj0⟩ ⟨(j 1).val, hj1⟩ rfl rfl]
  unfold G
  rw [Cert.Cheb.layer_apply]
  refine Eq.trans ?_ (Cert.Cheb.accumulated _ _ _ _ _ _ _ (row t ⟨(j 0).val, hj0⟩) ⟨(j 1).val, hj1⟩)
  simp only [feat0 m c t, feat1 m c t, feat2 m c t, feat3 m c t, coef4 m c t, coef5 m c t, coef6 m c t, coef7 m c t,
    wts m c t, bias m c t, Cert.KernelIdeal.HostCoef.col0_apply m c, Cert.KernelIdeal.HostCoef.col1_apply m c,
    Cert.KernelIdeal.HostCoef.col2_apply m c, Cert.KernelIdeal.HostCoef.col3_apply m c]

/-- An index of the result array is in point t's block iff each coordinate is in the block's range on its axis. -/
theorem mem_blk (t : Fin cfg0.N) (i : S100000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v57).slice (win0_10.rect t)).set ↔ _
  rw [View.set_slice_whole, Rect.mem_set_unit]
  exact Iff.rfl

/-- Every index of the result array is in some point's block: row r is in block r / 4000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨e0, e1⟩ := idx_out t
  refine ⟨t, flush0_10 t, ?_⟩
  rw [mem_blk]
  intro a
  match a with
  | ⟨0, _⟩ =>
    show win0_10.index t (0 : Fin 2) * 4000 ≤ (i 0).val ∧ (i 0).val < win0_10.index t (0 : Fin 2) * 4000 + 4000
    rw [e0, ht]; omega
  | ⟨1, _⟩ =>
    show win0_10.index t (1 : Fin 2) * 128 ≤ (i 1).val ∧ (i 1).val < win0_10.index t (1 : Fin 2) * 128 + 128
    rw [e1]; omega

/-- The result array after the run is the layer. -/
theorem final (c : Dev nD) : (dats m 0 c).arrAt 10 cfg0.N = G m c :=
  (dats m 0 c).arrAt_eq_of_cover 10 (G m c) (fun t _ => flushed_eq m c t) cover

/-- The run, read: the result array at the layer, the arguments unchanged. -/
theorem run : θ_run defs (onTc (τ := τ) (main (F := Ideal))) ⟨m, fun _ => 0, ρ⟩ fun r => ∀ c : Dev nD,
      r.2.mem ((c : Thread nD τ).loc main_v57) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Hand

end
-- ==== Proof.RefValue.lean ====
/-
  The reference's result as the Chebyshev layer of its operands.

  The reference computes, for each order o, the coefficient row c[o] spread across the 128 features, multiplied into
  the order's feature array T_o, and that product times the weight matrix W[o] (a host dot_general); it adds the four
  products in order and the bias row last. Entry (n, g) of each product is Σ_k (c[o,n]·T_o[n,k])·W[o,k,g]: the
  layer of ChebSpec, with T_0 the input features and T_1, T_2, T_3 the program's own intermediate arrays (the
  sparse aggregation steps, which are not opened here).
-/
import proofs.«109658_j17703855194471_2_alg».proof.Proof.Gen.ReferenceIdeal.Read
import proofs.«109658_j17703855194471_2_alg».proof.Proof.ChebSpec
import proofs.«109658_j17703855194471_2_alg».proof.Proof.LibPlainDot
import Idealize.ShloMosaic.Lib.ValueLayout
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- One order's product at entry (n, g): row o of the coefficients, spread over the features and multiplied into the
    feature array T, times slab o of the weights. -/
theorem order_term (o : ℕ) (oo : Fin 4) (ho : oo.val = o)
    (T : FVec Ideal S100000x128 .f32) (x1 : FVec Ideal S4x100000 .f32) (x2 : FVec Ideal S4x128x128 .f32)
    (hs1 : S4x100000.Slices ![o, 0] S1x100000) (hs2 : S4x128x128.Slices ![o, 0, 0] S1x128x128)
    (n : Fin 100000) (g : Fin 128) :
    Host.dotGeneral (F := Ideal) dot_S100000x128_S128x128_S100000x128_1_0_0_1_n_n none
        (mulf (broadcastInDim S100000x128 ![0, 1] bcast_S100000x1_S100000x128_0_1
          (broadcastInDim S100000x1 ![0] bcast_S100000_S100000x1_0
            (shapeCast S100000 (extractStridedSlice S1x100000 ![o, 0] x1 hs1) shapeCasts_S1x100000_S100000))) T)
        (shapeCast S128x128 (extractStridedSlice S1x128x128 ![o, 0, 0] x2 hs2) shapeCasts_S1x128x128_S128x128) (ix2 n g)
      = Cert.Cheb.term T x1 x2 oo n g := by
  refine (Cert.PlainDot.hostDot_apply dot_S100000x128_S128x128_S100000x128_1_0_0_1_n_n rfl _ _ n g).trans ?_
  unfold Cert.Cheb.term
  refine Finset.sum_congr rfl fun k _ => ?_
  have e1 : broadcastInDim S100000x128 ![0, 1] bcast_S100000x1_S100000x128_0_1
        (broadcastInDim S100000x1 ![0] bcast_S100000_S100000x1_0
          (shapeCast S100000 (extractStridedSlice S1x100000 ![o, 0] x1 hs1) shapeCasts_S1x100000_S100000)) (ix2 n k)
      = x1 (ix2 oo n) :=
    (broadcastInDim_apply _ bcast_S100000x1_S100000x128_0_1 _ (ix2 n k) (ix2 n (0 : Fin 1)) (fun a => by
      match a with
      | ⟨0, _⟩ => show n.val = if (100000 : Nat) = 1 then 0 else n.val; rw [if_neg (by decide)]
      | ⟨1, _⟩ => show (0 : Nat) = if (1 : Nat) = 1 then 0 else k.val; rw [if_pos rfl])).trans
    ((broadcastInDim_apply _ bcast_S100000_S100000x1_0 _ (ix2 n (0 : Fin 1)) (ix1 n) (fun a => by
      match a with
      | ⟨0, _⟩ => show n.val = if (100000 : Nat) = 1 then 0 else n.val; rw [if_neg (by decide)])).trans
    ((shapeCast_1a_a_apply _ shapeCasts_S1x100000_S100000 n).trans
      (slice2_axis0_apply o x1 hs1 (0 : Fin 1) n oo (by rw [ho]; rfl))))
  have e2 : shapeCast S128x128 (extractStridedSlice S1x128x128 ![o, 0, 0] x2 hs2) shapeCasts_S1x128x128_S128x128 (ix2 k g)
      = x2 (ix3 oo k g) :=
    (shapeCast_1ab_ab_apply _ shapeCasts_S1x128x128_S128x128 k g).trans
      (extractStridedSlice_apply ![o, 0, 0] x2 hs2 (ix3 (0 : Fin 1) k g) (ix3 oo k g) (fun a => by
        match a with
        | ⟨0, _⟩ => show oo.val = o + 0; omega
        | ⟨1, _⟩ => show k.val = 0 + k.val; omega
        | ⟨2, _⟩ => show g.val = 0 + g.val; omega))
  show (broadcastInDim S100000x128 ![0, 1] bcast_S100000x1_S100000x128_0_1
        (broadcastInDim S100000x1 ![0] bcast_S100000_S100000x1_0
          (shapeCast S100000 (extractStridedSlice S1x100000 ![o, 0] x1 hs1) shapeCasts_S1x100000_S100000)) (ix2 n k) * T (ix2 n k))
      * shapeCast S128x128 (extractStridedSlice S1x128x128 ![o, 0, 0] x2 hs2) shapeCasts_S1x128x128_S128x128 (ix2 k g) = _
  rw [e1, e2]

/-- The bias row spread down the rows, at entry (n, g). -/
theorem bias_term (x3 : FVec Ideal S128 .f32) (n : Fin 100000) (g : Fin 128) :
    val_main_v81 (F := Ideal) x3 (ix2 n g) = x3 (ix1 g) := by
  rw [val_main_v81_apply, val_main_v80_apply]
  exact congrArg x3 (funext fun a => Fin.ext (by
    match a with
    | ⟨0, _⟩ => rfl))

variable (x0 : FVec Ideal S100000x128 .f32) (x1 : FVec Ideal S4x100000 .f32)
  (x2 : FVec Ideal S4x128x128 .f32) (x3 : FVec Ideal S128 .f32)
  (x4 : FVec Ideal S1600000 .f32) (x5 x6 : (⟨S1600000, .i32⟩ : BufTy).Contents (Elt Ideal))

theorem order0 (n : Fin 100000) (g : Fin 128) :
    val_main_v7 (F := Ideal) x0 x1 x2 (ix2 n g) = Cert.Cheb.term x0 x1 x2 0 n g := by
  unfold val_main_v7 val_main_v6 val_main_v5 val_main_v4 val_main_v3 val_main_v2 val_main_v1 val_main_v0
  exact order_term 0 0 rfl x0 x1 x2 _ _ n g

theorem order1 (n : Fin 100000) (g : Fin 128) :
    val_main_v28 (F := Ideal) x0 x1 x2 x4 x5 x6 (ix2 n g)
      = Cert.Cheb.term (val_main_v20 (F := Ideal) x0 x4 x5 x6) x1 x2 1 n g := by
  unfold val_main_v28 val_main_v27 val_main_v26 val_main_v25 val_main_v24 val_main_v23 val_main_v22 val_main_v21
  exact order_term 1 1 rfl _ x1 x2 _ _ n g

theorem order2 (n : Fin 100000) (g : Fin 128) :
    val_main_v53 (F := Ideal) x0 x1 x2 x4 x5 x6 (ix2 n g)
      = Cert.Cheb.term (val_main_v45 (F := Ideal) x0 x4 x5 x6) x1 x2 2 n g := by
  unfold val_main_v53 val_main_v52 val_main_v51 val_main_v50 val_main_v49 val_main_v48 val_main_v47 val_main_v46
  exact order_term 2 2 rfl _ x1 x2 _ _ n g

theorem order3 (n : Fin 100000) (g : Fin 128) :
    val_main_v78 (F := Ideal) x0 x1 x2 x4 x5 x6 (ix2 n g)
      = Cert.Cheb.term (val_main_v70 (F := Ideal) x0 x4 x5 x6) x1 x2 3 n g := by
  unfold val_main_v78 val_main_v77 val_main_v76 val_main_v75 val_main_v74 val_main_v73 val_main_v72 val_main_v71
  exact order_term 3 3 rfl _ x1 x2 _ _ n g

/-- The reference's result array is the layer of the input features, the three aggregated feature arrays, the
    coefficients, the weights and the bias. -/
theorem result_eq :
    val_main_v82 (F := Ideal) x0 x1 x2 x3 x4 x5 x6
      = Cert.Cheb.layer x0 (val_main_v20 (F := Ideal) x0 x4 x5 x6) (val_main_v45 (F := Ideal) x0 x4 x5 x6)
          (val_main_v70 (F := Ideal) x0 x4 x5 x6) x1 x2 x3 := by
  funext i
  obtain ⟨n, g, rfl⟩ : ∃ (n : Fin 100000) (g : Fin 128), i = ix2 n g := ⟨i 0, i 1, eq_ix2 i⟩
  rw [Cert.Cheb.layer_apply]
  unfold Cert.Cheb.layerAt
  exact congrArg₂ (· + ·) (congrArg₂ (· + ·) (congrArg₂ (· + ·) (congrArg₂ (· + ·)
    (order0 x0 x1 x2 n g) (order1 x0 x1 x2 x4 x5 x6 n g)) (order2 x0 x1 x2 x4 x5 x6 n g)) (order3 x0 x1 x2 x4 x5 x6 n g))
    (bias_term x3 n g)

end Cert.ReferenceIdeal.RefValue

end
-- ==== Proof.HostChain.lean ====
/-
  The arrays the kernel's program prepares on the host before its one launch, as functions of the arguments.

  Before the launch the program computes the three aggregated feature arrays T_1, T_2, T_3 — each a gather of rows
  along the edges' sources, a scaling by the edge weights, and a scatter-add into the edges' destinations, with
  T_k = 2·(aggregate of T_{k-1}) − T_{k-2} from the second on — and stands each row of the coefficient array up as a
  column. The aggregation steps are, operation for operation, the ones the reference program performs; they are
  identified here with the reference's own stages as whole terms and never opened. A coefficient column read at
  (n, 0) is the coefficient array at (o, n).
-/
import proofs.«109658_j17703855194471_2_alg».proof.Proof.Gen.KernelIdeal.Frame
import proofs.«109658_j17703855194471_2_alg».proof.Proof.Gen.ReferenceIdeal.Read
import proofs.«109658_j17703855194471_2_alg».proof.Proof.LibRowAsColumn
import Idealize.ShloMosaic.Lib.StableHlo.Run
import Idealize.ShloMosaic.Lib.ValueIdx

noncomputable section

namespace Cert.KernelIdeal.HostChain

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 4000000 in
/-- T_1 as the region finds it: the reference's first aggregation stage of the same arguments. -/
theorem V_tx1 (c : Dev nD) :
    (V m c main_v12 : S100000x128.Idx → EReal)
      = Cert.ReferenceIdeal.Read.val_main_v20 (F := Ideal) (m ((c : Thread nD τ).loc main_arg0))
          (m ((c : Thread nD τ).loc main_arg4)) (m ((c : Thread nD τ).loc main_arg5)) (m ((c : Thread nD τ).loc main_arg6)) := by
  dsimp only [Gen.V, Gen.hostOps0]
  after_results_simp <;> rfl

set_option maxRecDepth 8192 in
set_option maxHeartbeats 4000000 in
/-- T_2 as the region finds it: the reference's second stage. -/
theorem V_tx2 (c : Dev nD) :
    (V m c main_v28 : S100000x128.Idx → EReal)
      = Cert.ReferenceIdeal.Read.val_main_v45 (F := Ideal) (m ((c : Thread nD τ).loc main_arg0))
          (m ((c : Thread nD τ).loc main_arg4)) (m ((c : Thread nD τ).loc main_arg5)) (m ((c : Thread nD τ).loc main_arg6)) := by
  dsimp only [Gen.V, Gen.hostOps0]
  after_results_simp <;> rfl

set_option maxRecDepth 8192 in
set_option maxHeartbeats 4000000 in
/-- T_3 as the region finds it: the reference's third stage. -/
theorem V_tx3 (c : Dev nD) :
    (V m c main_v44 : S100000x128.Idx → EReal)
      = Cert.ReferenceIdeal.Read.val_main_v70 (F := Ideal) (m ((c : Thread nD τ).loc main_arg0))
          (m ((c : Thread nD τ).loc main_arg4)) (m ((c : Thread nD τ).loc main_arg5)) (m ((c : Thread nD τ).loc main_arg6)) := by
  dsimp only [Gen.V, Gen.hostOps0]
  after_results_simp <;> rfl

end Cert.KernelIdeal.HostChain

end
-- ==== Proof.lean ====
/-
  A Chebyshev graph-convolution layer of order four: the tiled kernel against its jnp reference, over the extended reals.

  Both programs first compute, on the host and by the same operations, the Chebyshev feature arrays T_0 = x,
  T_1 = L̂x, T_k = 2·L̂T_{k-1} − T_{k-2} (each L̂· an edge-weighted gather and scatter-add over 1,600,000 edges), and then
  combine them: out[n, g] = Σ_o Σ_k (c[o,n]·T_o[n,k])·W[o,k,g] + b[g]. The reference does the combination with four
  whole-array products on the host. The kernel does it block by block — 25 grid points, each taking 4000 rows of the
  four feature arrays and of the four coefficient columns, multiplying each scaled block by its weight matrix on the
  matrix unit (operands rounded to bf16, which over the extended reals is the identity), adding the four products
  onto a zero block and then the bias.

  The three frames are the generated ones (the reference's is its generated run with the result dropped). The
  idealization rewrote nothing, so that claim is trivial. For the equality of results: the kernel's result array is
  the layer of ChebSpec applied to the arrays the region finds (KernelValue, over KernelBlock, the three
  KernelWindows modules and HostCoef); the reference's result is the same layer applied to its own stages (RefValue); and the aggregated
  feature arrays the kernel's region finds are the reference's stages of the same arguments, term for term
  (HostChain). Only 0 + a = a and a·b = b·a are used, so the finiteness of the inputs is never needed.
-/
import proofs.«109658_j17703855194471_2_alg».proof.Defs
import proofs.«109658_j17703855194471_2_alg».proof.Proof.Gen.Kernel
import proofs.«109658_j17703855194471_2_alg».proof.Proof.Gen.Kernel.Skeleton
import proofs.«109658_j17703855194471_2_alg».proof.Proof.Gen.Kernel.Launch
import proofs.«109658_j17703855194471_2_alg».proof.Proof.Gen.Kernel.Points
import proofs.«109658_j17703855194471_2_alg».proof.Proof.Gen.Kernel.Frame
import proofs.«109658_j17703855194471_2_alg».proof.Proof.Gen.KernelIdeal
import proofs.«109658_j17703855194471_2_alg».proof.Proof.Gen.KernelIdeal.Skeleton
import proofs.«109658_j17703855194471_2_alg».proof.Proof.Gen.KernelIdeal.Launch
import proofs.«109658_j17703855194471_2_alg».proof.Proof.Gen.KernelIdeal.Points
import proofs.«109658_j17703855194471_2_alg».proof.Proof.Gen.KernelIdeal.Frame
import proofs.«109658_j17703855194471_2_alg».proof.Proof.Gen.ReferenceIdeal
import proofs.«109658_j17703855194471_2_alg».proof.Proof.Gen.Pre_finite_inputs
import proofs.«109658_j17703855194471_2_alg».proof.Proof.Gen.KernelIdeal.Value
import proofs.«109658_j17703855194471_2_alg».proof.Proof.Gen.ReferenceIdeal.Run
import proofs.«109658_j17703855194471_2_alg».proof.Proof.Gen.ReferenceIdeal.Read
import proofs.«109658_j17703855194471_2_alg».proof.Proof.KernelValue
import proofs.«109658_j17703855194471_2_alg».proof.Proof.RefValue
import proofs.«109658_j17703855194471_2_alg».proof.Proof.HostChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both result arrays are the layer of the input features, the three aggregated feature arrays (the same terms of
    the same arguments in both programs), the coefficients, the weights and the bias. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v82_eq, Cert.ReferenceIdeal.RefValue.result_eq, a0, a1, a2, a3, a4, a5, a6]
  show _ = Cert.KernelIdeal.Hand.G m c
  unfold Cert.KernelIdeal.Hand.G
  rw [Cert.KernelIdeal.HostChain.V_tx1, Cert.KernelIdeal.HostChain.V_tx2, Cert.KernelIdeal.HostChain.V_tx3,
    Cert.KernelIdeal.Gen.V_main_arg0, Cert.KernelIdeal.Gen.V_main_arg2, Cert.KernelIdeal.Gen.V_main_arg3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
